-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S128x16 .f32) (main_arg6 : FVec F S16 .f32) (main_arg7 : FVec F S128x16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x16 .f32 := Host.absf main_arg5
  let main_cst_6 : FVec F S_ .f32 := constant S_ .f32 0x7F800000#32
  let main_v20 : FVec F S128x16 .f32 := broadcastInDim S128x16 ![] bcast_S_S128x16 main_cst_6
  let main_v21 : IVec S128x16 1 := cmpf .olt main_v19 main_v20
  let main_c_7 : IVec S_ 1 := constantI S_ 1 1#1
  let main_v22 : IVec S_ 1 := (fun x v => Host.reduce IntOp.andi x v reducesTo_S128x16_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S128x16 .f32 := Host.absf main_arg7
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S128x128 .f32) (main_arg3 : FVec F S128 .f32) (main_arg4 : FVec F S128x128 .f32) (main_arg5 : FVec F S128x16 .f32) (main_arg6 : FVec F S16 .f32) (main_arg7 : FVec F S128x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩
abbrev S4000x128 : Shape := ⟨2, ![4000, 128]⟩
abbrev S1x16 : Shape := ⟨2, ![1, 16]⟩
abbrev S100000x16 : Shape := ⟨2, ![100000, 16]⟩
abbrev S4000x16 : Shape := ⟨2, ![4000, 16]⟩

abbrev nBuf : Space → Nat
  | .hbm => 82
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S640000, .i1⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000, .f32⟩
  | .hbm, ⟨37, _⟩ => ⟨S640000, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000x128, .f32⟩
  | .hbm, ⟨47, _⟩ => ⟨S640000x1, .f32⟩
  | .hbm, ⟨48, _⟩ => ⟨S640000x128, .f32⟩
  | .hbm, ⟨49, _⟩ => ⟨S640000x128, .f32⟩
  | .hbm, ⟨50, _⟩ => ⟨S_, .f32⟩
  | .hbm, ⟨51, _⟩ => ⟨S100000x128, .f32⟩
  | .hbm, ⟨52, _⟩ => ⟨S640000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S_, .i32⟩
  | .hbm, ⟨61, _⟩ => ⟨S640000, .i32⟩
  | .hbm, ⟨62, _⟩ => ⟨S640000, .i1⟩
  | .hbm, ⟨63, _⟩ => ⟨S_, .i32⟩
  | .hbm, ⟨64, _⟩ => ⟨S640000, .i32⟩
  | .hbm, ⟨65, _⟩ => ⟨S640000, .i32⟩
  | .hbm, ⟨66, _⟩ => ⟨S640000, .i32⟩
  | .hbm, ⟨67, _⟩ => ⟨S640000x1, .i32⟩
  | .hbm, ⟨68, _⟩ => ⟨S640000x128, .f32⟩
  | .hbm, ⟨69, _⟩ => ⟨S640000x1, .f32⟩
  | .hbm, ⟨70, _⟩ => ⟨S640000x128, .f32⟩
  | .hbm, ⟨71, _⟩ => ⟨S640000x128, .f32⟩
  | .hbm, ⟨72, _⟩ => ⟨S_, .f32⟩
  | .hbm, ⟨73, _⟩ => ⟨S100000x128, .f32⟩
  | .hbm, ⟨74, _⟩ => ⟨S640000x1, .i32⟩
  | .hbm, ⟨75, _⟩ => ⟨S100000x128, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x16, .f32⟩
  | .hbm, ⟨81, _⟩ => ⟨S100000x16, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S128x16, .f32⟩
  | .local _ .vmem, ⟨14, _⟩ => ⟨S128x16, .f32⟩
  | .local _ .vmem, ⟨15, _⟩ => ⟨S1x16, .f32⟩
  | .local _ .vmem, ⟨16, _⟩ => ⟨S4000x16, .f32⟩
  | .local _ .vmem, ⟨17, _⟩ => ⟨S4000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S100000 : S_.BroadcastsInDim S100000 (![] : Fin 0 → Fin S100000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x128_S4000x128_1_0_0_1_n_n_wf : DotDims.WF S4000x128 S128x128 S4000x128 [1] [0] [0] [1] [] []
  dot_S4000x128_S128x16_S4000x16_1_0_0_1_n_n_wf : DotDims.WF S4000x128 S128x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .f32 = 32 ∨ (Rect.block (s := S128x16) S128x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x16.size a ≤ S128x16.size a
  hwx1_3 : ∀ i : grid1.Coords, EltTy.bits .f32 = 32 ∨ (Rect.block (s := S128x16) S128x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x16.size a ≤ S100000x16.size a
  hwx1_5 : ∀ i : grid1.Coords, EltTy.bits .f32 = 32 ∨ (Rect.block (s := S100000x16) S4000x16.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf

abbrev win0_0 : Pipeline.Window sig grid0 :=
  Pipeline.Window.ofSpec (Memref.whole main_v38) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v40) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v57) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v59) S4000x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S640000x128 : Shape := ⟨2, ![640000, 128]⟩
abbrev S100000x1 : Shape := ⟨2, ![100000, 1]⟩
abbrev S1x128 : Shape := ⟨2, ![1, 128]⟩
abbrev S100000x16 : Shape := ⟨2, ![100000, 16]⟩
abbrev S1x16 : Shape := ⟨2, ![1, 16]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x16, .f32⟩
  | .hbm, ⟨6, _⟩ => ⟨S16, .f32⟩
  | .hbm, ⟨7, _⟩ => ⟨S128x16, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S640000, .i1⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000, .f32⟩
  | .hbm, ⟨37, _⟩ => ⟨S640000, .f32⟩
  | .hbm, ⟨38, _⟩ => ⟨S_, .i32⟩
  | .hbm, ⟨39, _⟩ => ⟨S640000, .i32⟩
  | .hbm, ⟨40, _⟩ => ⟨S640000, .i1⟩
  | .hbm, ⟨41, _⟩ => ⟨S_, .i32⟩
  | .hbm, ⟨42, _⟩ => ⟨S640000, .i32⟩
  | .hbm, ⟨43, _⟩ => ⟨S640000, .i32⟩
  | .hbm, ⟨44, _⟩ => ⟨S640000, .i32⟩
  | .hbm, ⟨45, _⟩ => ⟨S640000x1, .i32⟩
  | .hbm, ⟨46, _⟩ => ⟨S640000x128, .f32⟩
  | .hbm, ⟨47, _⟩ => ⟨S640000x1, .f32⟩
  | .hbm, ⟨48, _⟩ => ⟨S640000x128, .f32⟩
  | .hbm, ⟨49, _⟩ => ⟨S640000x128, .f32⟩
  | .hbm, ⟨50, _⟩ => ⟨S_, .f32⟩
  | .hbm, ⟨51, _⟩ => ⟨S100000x128, .f32⟩
  | .hbm, ⟨52, _⟩ => ⟨S640000x1, .i32⟩
  | .hbm, ⟨53, _⟩ => ⟨S100000x128, .f32⟩
  | .hbm, ⟨54, _⟩ => ⟨S100000x1, .f32⟩
  | .hbm, ⟨55, _⟩ => ⟨S100000x128, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000, .f32⟩
  | .hbm, ⟨69, _⟩ => ⟨S640000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S_, .f32⟩
  | .hbm, ⟨75, _⟩ => ⟨S_, .f32⟩
  | .hbm, ⟨76, _⟩ => ⟨S100000, .f32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .f32⟩
  | .hbm, ⟨81, _⟩ => ⟨S_, .i32⟩
  | .hbm, ⟨82, _⟩ => ⟨S640000, .i32⟩
  | .hbm, ⟨83, _⟩ => ⟨S640000, .i1⟩
  | .hbm, ⟨84, _⟩ => ⟨S_, .i32⟩
  | .hbm, ⟨85, _⟩ => ⟨S640000, .i32⟩
  | .hbm, ⟨86, _⟩ => ⟨S640000, .i32⟩
  | .hbm, ⟨87, _⟩ => ⟨S640000, .i32⟩
  | .hbm, ⟨88, _⟩ => ⟨S640000x1, .i32⟩
  | .hbm, ⟨89, _⟩ => ⟨S640000, .f32⟩
  | .hbm, ⟨90, _⟩ => ⟨S640000, .f32⟩
  | .hbm, ⟨91, _⟩ => ⟨S_, .i32⟩
  | .hbm, ⟨92, _⟩ => ⟨S640000, .i32⟩
  | .hbm, ⟨93, _⟩ => ⟨S640000, .i1⟩
  | .hbm, ⟨94, _⟩ => ⟨S_, .i32⟩
  | .hbm, ⟨95, _⟩ => ⟨S640000, .i32⟩
  | .hbm, ⟨96, _⟩ => ⟨S640000, .i32⟩
  | .hbm, ⟨97, _⟩ => ⟨S640000, .i32⟩
  | .hbm, ⟨98, _⟩ => ⟨S640000x1, .i32⟩
  | .hbm, ⟨99, _⟩ => ⟨S640000x128, .f32⟩
  | .hbm, ⟨100, _⟩ => ⟨S640000x1, .f32⟩
  | .hbm, ⟨101, _⟩ => ⟨S640000x128, .f32⟩
  | .hbm, ⟨102, _⟩ => ⟨S640000x128, .f32⟩
  | .hbm, ⟨103, _⟩ => ⟨S_, .f32⟩
  | .hbm, ⟨104, _⟩ => ⟨S100000x128, .f32⟩
  | .hbm, ⟨105, _⟩ => ⟨S640000x1, .i32⟩
  | .hbm, ⟨106, _⟩ => ⟨S100000x128, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S100000x128, .f32⟩
  | .hbm, ⟨111, _⟩ => ⟨S100000x16, .f32⟩
  | .hbm, ⟨112, _⟩ => ⟨S1x16, .f32⟩
  | .hbm, ⟨113, _⟩ => ⟨S100000x16, .f32⟩
  | .hbm, ⟨114, _⟩ => ⟨S100000x16, .f32⟩
  | .hbm, ⟨115, _⟩ => ⟨S100000x16, .f32⟩
  | .hbm, ⟨116, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_cst : Ref sig .tc := ⟨.hbm, 64, rfl⟩
abbrev main_call1_v0 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_cst_9 : Ref sig .tc := ⟨.hbm, 74, rfl⟩
abbrev main_call2_v0 : Ref sig .tc := ⟨.hbm, 75, rfl⟩
abbrev main_call2_v1 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_c_14 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_15 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S100000 : S_.BroadcastsInDim S100000 (![] : Fin 0 → Fin S100000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  dot_S100000x128_S128x16_S100000x16_1_0_0_1_n_n_wf : DotDims.WF S100000x128 S128x16 S100000x16 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.Combine.lean ====
/-
  One graph-convolution layer's dense step, read at one entry.

  For an aggregate a : [N, K], the features x : [N, K], two weight matrices wo, wr : [K, D] and a one-row bias
  b : [1, D], the layer's affine map at (r, q) is
      (∑ c, a[r,c] · wo[c,q]) + (∑ c, x[r,c] · wr[c,q]) + b[0,q]
  on the extended reals. The host adds the bias to the first product before it adds the second; that is the same
  number because addition of extended reals is commutative and associative (no cancellation, no distributivity, so
  nothing here asks the entries to be finite).
-/
import proofs.«113458_j4801773437672_1_alg».proof.Proof.LibMlpAt

noncomputable section

open scoped BigOperators

namespace Cert.Gcn

open Idealize.ShloMosaic Idealize.ShloMosaic.ValueIdx Cert.Mlp

/-- The layer's affine map at (r, q): both products' sums over the contracted coordinate, then the bias. -/
def lin {N K D : Nat} (a x : FVec Ideal ⟨2, ![N, K]⟩ .f32) (wo wr : FVec Ideal ⟨2, ![K, D]⟩ .f32)
    (b : FVec Ideal ⟨2, ![1, D]⟩ .f32) (r : Fin N) (q : Fin D) : Ideal .f32 :=
  (∑ c : Fin K, a (ix2 r c) * wo (ix2 c q)) + (∑ c : Fin K, x (ix2 r c) * wr (ix2 c q)) + b (ix2 (0 : Fin 1) q)

/-- The map at (r, q) reads row r of the aggregate and of the features, column q of both weight matrices and entry q
    of the bias row, and nothing else: operands that agree there give the same value (a tile against the whole
    array it was cut from). -/
theorem lin_congr {N N' K D D' : Nat} (a x : FVec Ideal ⟨2, ![N, K]⟩ .f32) (a' x' : FVec Ideal ⟨2, ![N', K]⟩ .f32)
    (wo wr : FVec Ideal ⟨2, ![K, D]⟩ .f32) (wo' wr' : FVec Ideal ⟨2, ![K, D']⟩ .f32)
    (b : FVec Ideal ⟨2, ![1, D]⟩ .f32) (b' : FVec Ideal ⟨2, ![1, D']⟩ .f32) (r : Fin N) (r' : Fin N') (q : Fin D) (q' : Fin D')
    (ha : ∀ c : Fin K, a (ix2 r c) = a' (ix2 r' c)) (hx : ∀ c : Fin K, x (ix2 r c) = x' (ix2 r' c))
    (ho : ∀ c : Fin K, wo (ix2 c q) = wo' (ix2 c q')) (hr : ∀ c : Fin K, wr (ix2 c q) = wr' (ix2 c q'))
    (hb : b (ix2 (0 : Fin 1) q) = b' (ix2 (0 : Fin 1) q')) :
    lin a x wo wr b r q = lin a' x' wo' wr' b' r' q' := by
  unfold lin
  simp only [ha, hx, ho, hr, hb]

/-- The host's spelling of the map: the first product, plus the bias (a vector made a row, the row repeated along
    the rows), plus the second product. At (r, q) it is the map with the bias vector viewed as its one row. -/
theorem hostLin_at {N K D : Nat} (w : DotDims.WF ⟨2, ![N, K]⟩ ⟨2, ![K, D]⟩ ⟨2, ![N, D]⟩ [1] [0] [0] [1] [] [])
    (hb : (⟨2, ![1, D]⟩ : Shape).BroadcastsInDim ⟨2, ![N, D]⟩ (![0, 1] : Fin 2 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (a x : FVec Ideal ⟨2, ![N, K]⟩ .f32) (wo wr : FVec Ideal ⟨2, ![K, D]⟩ .f32) (b : FVec Ideal ⟨1, ![D]⟩ .f32)
    (r : Fin N) (q : Fin D) :
    addf (addf (Host.dotGeneral (D2 w) none a wo)
        (broadcastInDim ⟨2, ![N, D]⟩ (![0, 1] : Fin 2 → Fin 2) hb (broadcastInDim ⟨2, ![1, D]⟩ (![1] : Fin 1 → Fin 2) hr b)))
      (Host.dotGeneral (D2 w) none x wr) (ix2 r q)
      = lin a x wo wr (shapeCast ⟨2, ![1, D]⟩ b hc) r q := by
  unfold lin
  rw [addf_apply, addf_apply, dotGeneral_at, dotGeneral_at, bcastRow_at, rowCast_eq_bcast b hc hr]
  exact add_right_comm _ _ _

end Cert.Gcn

end
-- ==== Proof.RefLayers.lean ====
/-
  The reference, layer by layer.

  Its @main computes, from the features x and the edge list e: the aggregate of x along e (messages gathered from
  the source rows, weighted by the inverse in-degree with self loops removed, scatter-added at the target rows,
  plus the node's own row over its degree), then the first layer's rectified affine map of (aggregate, x), then
  the aggregate of THAT array along e — by the same operations, the degree weights computed a second time from e
  alone —, then the second layer's affine map. Read at an entry each layer is the affine map of Combine.lean; the
  aggregation is never opened: it is one function of (features, edges), the same both times.
-/
import proofs.«113458_j4801773437672_1_alg».proof.Proof.Gen.ReferenceIdeal.Read
import proofs.«113458_j4801773437672_1_alg».proof.Proof.Combine

noncomputable section

open scoped BigOperators

namespace Cert.ReferenceIdeal.Layers

open Idealize.ShloMosaic Idealize.ShloMosaic.ValueIdx Cert.Mlp Cert.Gcn
open Cert.ReferenceIdeal Cert.ReferenceIdeal.Gen Cert.ReferenceIdeal.Read

/-- A vector of 128 entries is one row of 128. -/
theorem row128 : (⟨1, ![128]⟩ : Shape).ShapeCasts ⟨2, ![1, 128]⟩ := by decide
/-- A vector of 16 entries is one row of 16. -/
theorem row16 : (⟨1, ![16]⟩ : Shape).ShapeCasts ⟨2, ![1, 16]⟩ := by decide

/-- The aggregate along the edges, as the reference first computes it (of the input features). -/
abbrev agg (f : (⟨S100000x128, .f32⟩ : BufTy).Contents (Elt Ideal)) (e : (⟨S2x640000, .i32⟩ : BufTy).Contents (Elt Ideal)) :
    (⟨S100000x128, .f32⟩ : BufTy).Contents (Elt Ideal) := val_main_v38 (F := Ideal) f e

/-- The hidden array: the first layer's result. -/
abbrev hidden (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) : (⟨S100000x128, .f32⟩ : BufTy).Contents (Elt Ideal) :=
  val_main_v45 (F := Ideal) x0 x1 x2 x3 x4

/-- The second aggregation is the first one's function, of the hidden array and the same edges: operation by
    operation the two stretches of the program are the same, and the degree weights depend on the edges only. -/
theorem agg_hidden (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v78 (F := Ideal) x0 x1 x2 x3 x4 = agg (hidden x0 x1 x2 x3 x4) x1 := rfl

/-- The hidden array at (r, q): the rectified affine map of the aggregate and the features. -/
theorem hidden_at (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (r : Fin 100000) (q : Fin 128) :
    hidden x0 x1 x2 x3 x4 (ix2 r q)
      = max (lin (N := 100000) (K := 128) (D := 128) (agg x0 x1) x0 x2 x4 (shapeCast ⟨2, ![1, 128]⟩ x3 row128) r q)
          (Ideal.ofBits .f32 0x00000000#32) := by
  unfold hidden val_main_v45 val_main_v44 val_main_v43 val_main_v42 val_main_v41 val_main_v40 val_main_v39 val_main_call1_v0 val_main_call1_cst
  rw [maximumf_apply]
  refine congrArg₂ max ?_ ?_
  · exact hostLin_at (N := 100000) (K := 128) (D := 128) dot_S100000x128_S128x128_S100000x128_1_0_0_1_n_n_wf
      bcast_S1x128_S100000x128_0_1 bcast_S128_S1x128_1 row128 (agg x0 x1) x0 x2 x4 x3 r q
  · exact (bcastScalar_at (N := 100000) (D := 128) bcast_S_S100000x128 _ (ix2 r q)).trans rfl

/-- The result at (r, q): the affine map of the hidden array's aggregate and the hidden array. -/
theorem result_at (x0 : (⟨S100000x128, .f32⟩ : BufTy).Contents (Elt Ideal)) (x1 : (⟨S2x640000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128x16, .f32⟩ : BufTy).Contents (Elt Ideal))
    (x6 : (⟨S16, .f32⟩ : BufTy).Contents (Elt Ideal)) (x7 : (⟨S128x16, .f32⟩ : BufTy).Contents (Elt Ideal))
    (r : Fin 100000) (q : Fin 16) :
    val_main_v84 (F := Ideal) x0 x1 x2 x3 x4 x5 x6 x7 (ix2 r q)
      = lin (N := 100000) (K := 128) (D := 16) (agg (hidden x0 x1 x2 x3 x4) x1) (hidden x0 x1 x2 x3 x4) x5 x7
          (shapeCast ⟨2, ![1, 16]⟩ x6 row16) r q := by
  rw [← agg_hidden]
  unfold val_main_v84 val_main_v83 val_main_v82 val_main_v81 val_main_v80 val_main_v79
  exact hostLin_at (N := 100000) (K := 128) (D := 16) dot_S100000x128_S128x16_S100000x16_1_0_0_1_n_n_wf
    bcast_S1x16_S100000x16_0_1 bcast_S16_S1x16_1 row16 (val_main_v78 (F := Ideal) x0 x1 x2 x3 x4) (hidden x0 x1 x2 x3 x4) x5 x7 x6 r q

end Cert.ReferenceIdeal.Layers

end
-- ==== Proof.KernelHost.lean ====
/-
  What each grid of the idealized kernel finds in its operands: the host stretches of @main read back.

  Before the first grid the host computes, from the edge list e alone, the source and target rows, the mask of
  non-self-loop edges, the degrees, the inverse degrees and the edge weights, then the aggregate of the features x
  along e, and views the first bias vector as one row. Between the grids it computes the aggregate of the first
  grid's output along e — reusing the weights and inverse degrees of the first stretch — and views the second bias
  as one row. These are, operation for operation, the reference's operations, so every buffer is named by the
  reference's own stage function of the arguments; no argument array is ever written.

  Each stretch is read over an ARBITRARY valuation of the buffers (what it reads named by hypotheses), and the
  stretches are then chained from the launch memory to each grid's entry.
-/
import proofs.«113458_j4801773437672_1_alg».proof.Proof.Gen.KernelIdeal.Frame
import proofs.«113458_j4801773437672_1_alg».proof.Proof.RefLayers
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen
open Cert.ReferenceIdeal.Read
open Cert.ReferenceIdeal.Layers (agg)

/-! ## Each stretch over an arbitrary valuation -/

/-- The first stretch: the edges' source rows, target rows, non-self-loop mask, the in-degrees plus one, and the
    clip's lower bound 1. -/
theorem stretch_edges (V : Valuation τ sig (Elt Ideal)) :
    StableHlo.after hostOps0 V (Proc.devRef .tc main_v1) = val_main_v1 (F := Ideal) (V (Proc.devRef .tc main_arg1))
    ∧ StableHlo.after hostOps0 V (Proc.devRef .tc main_v3) = val_main_v3 (F := Ideal) (V (Proc.devRef .tc main_arg1))
    ∧ StableHlo.after hostOps0 V (Proc.devRef .tc main_v5) = val_main_v5 (F := Ideal) (V (Proc.devRef .tc main_arg1))
    ∧ StableHlo.after hostOps0 V (Proc.devRef .tc main_v10) = val_main_v10 (F := Ideal) (V (Proc.devRef .tc main_arg1))
    ∧ StableHlo.after hostOps0 V (Proc.devRef .tc main_cst_1) = val_main_cst_1 (F := Ideal) := by
  refine ⟨?_, ?_, ?_, ?_, ?_⟩ <;> (after_results_simp; rfl)

theorem edges_keep_arg0 (V : Valuation τ sig (Elt Ideal)) :
    StableHlo.after hostOps0 V (Proc.devRef .tc main_arg0) = V (Proc.devRef .tc main_arg0) := by after_results_simp
theorem edges_keep_arg2 (V : Valuation τ sig (Elt Ideal)) :
    StableHlo.after hostOps0 V (Proc.devRef .tc main_arg2) = V (Proc.devRef .tc main_arg2) := by after_results_simp
theorem edges_keep_arg3 (V : Valuation τ sig (Elt Ideal)) :
    StableHlo.after hostOps0 V (Proc.devRef .tc main_arg3) = V (Proc.devRef .tc main_arg3) := by after_results_simp
theorem edges_keep_arg4 (V : Valuation τ sig (Elt Ideal)) :
    StableHlo.after hostOps0 V (Proc.devRef .tc main_arg4) = V (Proc.devRef .tc main_arg4) := by after_results_simp
theorem edges_keep_arg5 (V : Valuation τ sig (Elt Ideal)) :
    StableHlo.after hostOps0 V (Proc.devRef .tc main_arg5) = V (Proc.devRef .tc main_arg5) := by after_results_simp
theorem edges_keep_arg6 (V : Valuation τ sig (Elt Ideal)) :
    StableHlo.after hostOps0 V (Proc.devRef .tc main_arg6) = V (Proc.devRef .tc main_arg6) := by after_results_simp
theorem edges_keep_arg7 (V : Valuation τ sig (Elt Ideal)) :
    StableHlo.after hostOps0 V (Proc.devRef .tc main_arg7) = V (Proc.devRef .tc main_arg7) := by after_results_simp

/-- The clip: the degrees bounded below by 1. -/
theorem stretch_clip (V : Valuation τ sig (Elt Ideal)) (e : (⟨Cert.ReferenceIdeal.S2x640000, .i32⟩ : BufTy).Contents (Elt Ideal))
    (h10 : V (Proc.devRef .tc main_v10) = val_main_v10 (F := Ideal) e) (h1 : V (Proc.devRef .tc main_cst_1) = val_main_cst_1 (F := Ideal)) :
    StableHlo.after hostOps0_1 V (Proc.devRef .tc main_v11) = val_main_v11 (F := Ideal) e := by
  after_results_simp
  rw [h10, h1]
  rfl

theorem clip_keep_v1 (V : Valuation τ sig (Elt Ideal)) :
    StableHlo.after hostOps0_1 V (Proc.devRef .tc main_v1) = V (Proc.devRef .tc main_v1) := by after_results_simp
theorem clip_keep_v3 (V : Valuation τ sig (Elt Ideal)) :
    StableHlo.after hostOps0_1 V (Proc.devRef .tc main_v3) = V (Proc.devRef .tc main_v3) := by after_results_simp
theorem clip_keep_v5 (V : Valuation τ sig (Elt Ideal)) :
    StableHlo.after hostOps0_1 V (Proc.devRef .tc main_v5) = V (Proc.devRef .tc main_v5) := by after_results_simp
theorem clip_keep_arg0 (V : Valuation τ sig (Elt Ideal)) :
    StableHlo.after hostOps0_1 V (Proc.devRef .tc main_arg0) = V (Proc.devRef .tc main_arg0) := by after_results_simp
theorem clip_keep_arg2 (V : Valuation τ sig (Elt Ideal)) :
    StableHlo.after hostOps0_1 V (Proc.devRef .tc main_arg2) = V (Proc.devRef .tc main_arg2) := by after_results_simp
theorem clip_keep_arg3 (V : Valuation τ sig (Elt Ideal)) :
    StableHlo.after hostOps0_1 V (Proc.devRef .tc main_arg3) = V (Proc.devRef .tc main_arg3) := by after_results_simp
theorem clip_keep_arg4 (V : Valuation τ sig (Elt Ideal)) :
    StableHlo.after hostOps0_1 V (Proc.devRef .tc main_arg4) = V (Proc.devRef .tc main_arg4) := by after_results_simp
theorem clip_keep_arg5 (V : Valuation τ sig (Elt Ideal)) :
    StableHlo.after hostOps0_1 V (Proc.devRef .tc main_arg5) = V (Proc.devRef .tc main_arg5) := by after_results_simp
theorem clip_keep_arg6 (V : Valuation τ sig (Elt Ideal)) :
    StableHlo.after hostOps0_1 V (Proc.devRef .tc main_arg6) = V (Proc.devRef .tc main_arg6) := by after_results_simp
theorem clip_keep_arg7 (V : Valuation τ sig (Elt Ideal)) :
    StableHlo.after hostOps0_1 V (Proc.devRef .tc main_arg7) = V (Proc.devRef .tc main_arg7) := by after_results_simp

/-- The third stretch: the inverse degrees, the edge weights, the aggregate of the features, the first bias as a row. -/
theorem stretch_agg1 (V : Valuation τ sig (Elt Ideal)) (e : (⟨Cert.ReferenceIdeal.S2x640000, .i32⟩ : BufTy).Contents (Elt Ideal))
    (h1 : V (Proc.devRef .tc main_v1) = val_main_v1 (F := Ideal) e) (h3 : V (Proc.devRef .tc main_v3) = val_main_v3 (F := Ideal) e)
    (h5 : V (Proc.devRef .tc main_v5) = val_main_v5 (F := Ideal) e) (h11 : V (Proc.devRef .tc main_v11) = val_main_v11 (F := Ideal) e) :
    StableHlo.after hostOps0_2 V (Proc.devRef .tc main_v13) = val_main_v13 (F := Ideal) e
    ∧ StableHlo.after hostOps0_2 V (Proc.devRef .tc main_v21) = val_main_v21 (F := Ideal) e
    ∧ StableHlo.after hostOps0_2 V (Proc.devRef .tc main_v38) = agg (V (Proc.devRef .tc main_arg0)) e
    ∧ StableHlo.after hostOps0_2 V (Proc.devRef .tc main_v39) = shapeCast S1x128 (V (Proc.devRef .tc main_arg3)) shapeCasts_S128_S1x128 := by
  refine ⟨?_, ?_, ?_, ?_⟩
  · after_results_simp; rw [h11]; rfl
  · after_results_simp; rw [h11, h3, h5]; rfl
  · after_results_simp; rw [h11, h3, h5, h1]; rfl
  · after_results_simp; rfl

theorem agg1_keep_v1 (V : Valuation τ sig (Elt Ideal)) :
    StableHlo.after hostOps0_2 V (Proc.devRef .tc main_v1) = V (Proc.devRef .tc main_v1) := by after_results_simp
theorem agg1_keep_v3 (V : Valuation τ sig (Elt Ideal)) :
    StableHlo.after hostOps0_2 V (Proc.devRef .tc main_v3) = V (Proc.devRef .tc main_v3) := by after_results_simp
theorem agg1_keep_arg0 (V : Valuation τ sig (Elt Ideal)) :
    StableHlo.after hostOps0_2 V (Proc.devRef .tc main_arg0) = V (Proc.devRef .tc main_arg0) := by after_results_simp
theorem agg1_keep_arg2 (V : Valuation τ sig (Elt Ideal)) :
    StableHlo.after hostOps0_2 V (Proc.devRef .tc main_arg2) = V (Proc.devRef .tc main_arg2) := by after_results_simp
theorem agg1_keep_arg4 (V : Valuation τ sig (Elt Ideal)) :
    StableHlo.after hostOps0_2 V (Proc.devRef .tc main_arg4) = V (Proc.devRef .tc main_arg4) := by after_results_simp
theorem agg1_keep_arg5 (V : Valuation τ sig (Elt Ideal)) :
    StableHlo.after hostOps0_2 V (Proc.devRef .tc main_arg5) = V (Proc.devRef .tc main_arg5) := by after_results_simp
theorem agg1_keep_arg6 (V : Valuation τ sig (Elt Ideal)) :
    StableHlo.after hostOps0_2 V (Proc.devRef .tc main_arg6) = V (Proc.devRef .tc main_arg6) := by after_results_simp
theorem agg1_keep_arg7 (V : Valuation τ sig (Elt Ideal)) :
    StableHlo.after hostOps0_2 V (Proc.devRef .tc main_arg7) = V (Proc.devRef .tc main_arg7) := by after_results_simp

/-- The stretch between the grids: the aggregate of the first grid's output, by the first stretch's weights and
    inverse degrees, and the second bias as a row. -/
theorem stretch_agg2 (V : Valuation τ sig (Elt Ideal)) (e : (⟨Cert.ReferenceIdeal.S2x640000, .i32⟩ : BufTy).Contents (Elt Ideal))
    (h1 : V (Proc.devRef .tc main_v1) = val_main_v1 (F := Ideal) e) (h3 : V (Proc.devRef .tc main_v3) = val_main_v3 (F := Ideal) e)
    (h13 : V (Proc.devRef .tc main_v13) = val_main_v13 (F := Ideal) e) (h21 : V (Proc.devRef .tc main_v21) = val_main_v21 (F := Ideal) e) :
    StableHlo.after hostOps1 V (Proc.devRef .tc main_v57) = agg (V (Proc.devRef .tc main_v40)) e
    ∧ StableHlo.after hostOps1 V (Proc.devRef .tc main_v58) = shapeCast S1x16 (V (Proc.devRef .tc main_arg6)) shapeCasts_S16_S1x16 := by
  refine ⟨?_, ?_⟩
  · after_results_simp; rw [h21, h13, h3, h1]; rfl
  · after_results_simp; rfl

theorem agg2_keep_v40 (V : Valuation τ sig (Elt Ideal)) :
    StableHlo.after hostOps1 V (Proc.devRef .tc main_v40) = V (Proc.devRef .tc main_v40) := by after_results_simp
theorem agg2_keep_arg5 (V : Valuation τ sig (Elt Ideal)) :
    StableHlo.after hostOps1 V (Proc.devRef .tc main_arg5) = V (Proc.devRef .tc main_arg5) := by after_results_simp
theorem agg2_keep_arg7 (V : Valuation τ sig (Elt Ideal)) :
    StableHlo.after hostOps1 V (Proc.devRef .tc main_arg7) = V (Proc.devRef .tc main_arg7) := by after_results_simp

end Cert.KernelIdeal.Host

end
-- ==== Proof.KernelTiles.lean ====
/-
  What one grid step of each layer's kernel stores, read at one entry of its tile.

  A step loads a tile of 4000 rows of the aggregate and of the features, both weight matrices and the bias row,
  narrows the four matrices to bf16 (the identity on exact values), forms the two products into zero accumulators,
  adds them, adds the bias row repeated along the rows, and — in the first layer only — takes the maximum with
  zero. At (p, q) that is the layer's affine map of the loaded tiles (rectified in the first layer).
-/
import proofs.«113458_j4801773437672_1_alg».proof.Proof.Gen.KernelIdeal.Skeleton
import proofs.«113458_j4801773437672_1_alg».proof.Proof.Combine

noncomputable section

open scoped BigOperators

namespace Cert.KernelIdeal.Tiles

open Idealize.ShloMosaic Idealize.ShloMosaic.ValueIdx Cert.Mlp Cert.Gcn Cert.KernelIdeal Cert.KernelIdeal.Gen

/-- The first layer's stored tile at (p, q): the rectified affine map of the loaded tiles. -/
theorem pay_layer1_at (a x : Vec Ideal S4000x128 .f32) (wo wr : Vec Ideal S128x128 .f32) (b : Vec Ideal S1x128 .f32)
    (p : Fin 4000) (q : Fin 128) :
    k0_pay1 (F := Ideal) a x wo wr b (ix2 p q)
      = max (lin (N := 4000) (K := 128) (D := 128) a x wo wr b p q) (Ideal.ofBits .f32 0x00000000#32) := by
  unfold k0_pay1 lin
  rw [maximumf_apply, addf_apply, addf_apply, broadcast_apply, shapeCast_self, shapeCast_self, shapeCast_self]
  refine congrArg₂ max (congrArg₂ (· + ·) (congrArg₂ (· + ·) ?_ ?_) ?_) rfl
  · refine (matmul_zero_at (m := 4000) (k := 128) (n := 128) dot_S4000x128_S128x128_S4000x128_1_0_0_1_n_n_wf none _ _ p q).trans ?_
    exact Finset.sum_congr rfl fun c _ => rfl
  · refine (matmul_zero_at (m := 4000) (k := 128) (n := 128) dot_S4000x128_S128x128_S4000x128_1_0_0_1_n_n_wf none _ _ p q).trans ?_
    exact Finset.sum_congr rfl fun c _ => rfl
  · exact broadcastTo_1b_ab_apply (a := 4000) (b := 128) b broadcasts_S1x128_S4000x128 p q

/-- The second layer's stored tile at (p, q): the affine map of the loaded tiles. -/
theorem pay_layer2_at (a x : Vec Ideal S4000x128 .f32) (wo wr : Vec Ideal S128x16 .f32) (b : Vec Ideal S1x16 .f32)
    (p : Fin 4000) (q : Fin 16) :
    k1_pay1 (F := Ideal) a x wo wr b (ix2 p q) = lin (N := 4000) (K := 128) (D := 16) a x wo wr b p q := by
  unfold k1_pay1 lin
  rw [addf_apply, addf_apply, shapeCast_self, shapeCast_self, shapeCast_self, shapeCast_self]
  refine congrArg₂ (· + ·) (congrArg₂ (· + ·) ?_ ?_) ?_
  · refine (matmul_zero_at (m := 4000) (k := 128) (n := 16) dot_S4000x128_S128x16_S4000x16_1_0_0_1_n_n_wf none _ _ p q).trans ?_
    exact Finset.sum_congr rfl fun c _ => rfl
  · refine (matmul_zero_at (m := 4000) (k := 128) (n := 16) dot_S4000x128_S128x16_S4000x16_1_0_0_1_n_n_wf none _ _ p q).trans ?_
    exact Finset.sum_congr rfl fun c _ => rfl
  · exact broadcastTo_1b_ab_apply (a := 4000) (b := 16) b broadcasts_S1x16_S4000x16 p q

end Cert.KernelIdeal.Tiles

end
-- ==== Proof.KernelArrays.lean ====
/-
  From tiles to whole arrays, for each layer's grid.

  Each grid has 25 steps; step t reads rows 4000·t … 4000·t + 3999 of the aggregate and of the features (all 128
  columns), the whole of both weight matrices and of the bias row, and writes rows 4000·t … 4000·t + 3999 of its
  output (all columns). Row r of the layer's map reads only row r of its two tall operands, so what step t writes
  back is its block of ONE whole-array function of the arrays as the grid finds them; the 25 blocks tile the 100000
  rows, so the output array ends holding that function.
-/
import proofs.«113458_j4801773437672_1_alg».proof.Proof.Gen.KernelIdeal.Frame
import proofs.«113458_j4801773437672_1_alg».proof.Proof.KernelTiles

set_option maxRecDepth 16384

noncomputable section

open scoped BigOperators

namespace Cert.KernelIdeal.Arrays

open Idealize.ShloMosaic Idealize.ShloMosaic.TcCoe Idealize.ShloMosaic.ValueIdx Idealize.SL.Sem
open Idealize.ShloMosaic.Pipeline (Dat)
open Cert.Gcn Cert.KernelIdeal Cert.KernelIdeal.Gen Cert.KernelIdeal.Tiles

variable (V : (c : Dev nD) → (b : Ref sig .tc) → Buf (Elt Ideal) ((c : Thread nD τ).loc b))

theorem origin2 : (![0, 0] : Fin 2 → Nat) = fun _ => 0 := funext fun a => by fin_cases a <;> rfl

/-! ## The first layer's grid -/

/-- The first layer's whole output: at (r, q) the rectified affine map of the aggregate, the features, the two weight
    matrices and the bias row as the grid finds them. -/
def layer1 (c : Dev nD) : S100000x128.Idx → Ideal .f32 := fun i =>
  max (lin (N := 100000) (K := 128) (D := 128) (V c main_v38) (V c main_arg0) (V c main_arg2) (V c main_arg4) (V c main_v39)
      (⟨(i 0).val, (i 0).isLt⟩ : Fin 100000) (⟨(i 1).val, (i 1).isLt⟩ : Fin 128))
    (Ideal.ofBits .f32 0x00000000#32)

/-- Where each window's block sits at step t, decided over the 25 steps: the two tall inputs and the output at block
    row t, everything at block column 0, the small operands at their only block. -/
theorem blocks1 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What step t writes back is block t of the layer's whole output. -/
theorem flushed1 (c : Dev nD) (t : Fin cfg0.N) :
    (dat0 V c).flushed 5 t = ((cfg0.win 5).blk t).view.read (Elt Ideal) (layer1 V c) := by
  show (cfg0.win 5).cut (grid0.coords t) ((dat0 V c).after 5 t) = _
  rw [after0_5]
  unfold out0_5
  rw [View.canon_unit_zero origin2]
  simp only [View.ld_unit_zero (S := S4000x128) origin2, View.ld_unit_zero (S := S128x128) origin2, View.ld_unit_zero (S := S1x128) origin2]
  obtain ⟨e00, e01, e10, e11, e20, e21, e30, e31, e40, e41, e50, e51⟩ := blocks1 t
  funext j
  obtain ⟨p, q, rfl⟩ : ∃ (p : Fin 4000) (q : Fin 128), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = layer1 V c (((cfg0.win 5).blk t).view.emb (ix2 p q))
  refine (pay_layer1_at (iblk0 V c 0 t) (iblk0 V c 1 t) (iblk0 V c 2 t) (iblk0 V c 3 t) (iblk0 V c 4 t) p q).trans ?_
  unfold layer1
  refine congrArg₂ max ?_ rfl
  refine lin_congr (N := 4000) (N' := 100000) (K := 128) (D := 128) (D' := 128) _ _ _ _ _ _ _ _ _ _ p _ q _ ?_ ?_ ?_ ?_ ?_
  · intro k
    show V c main_v38 (((cfg0.win 0).blk t).view.emb (ix2 p k)) = V c main_v38 _
    refine congrArg _ (funext fun a => Fin.ext ?_)
    match a with
    | ⟨0, _⟩ => show win0_0.index t (0 : Fin 2) * 4000 + 1 * p.val = win0_5.index t (0 : Fin 2) * 4000 + 1 * p.val; omega
    | ⟨1, _⟩ => show win0_0.index t (1 : Fin 2) * 128 + 1 * k.val = k.val; omega
  · intro k
    show V c main_arg0 (((cfg0.win 1).blk t).view.emb (ix2 p k)) = V c main_arg0 _
    refine congrArg _ (funext fun a => Fin.ext ?_)
    match a with
    | ⟨0, _⟩ => show win0_1.index t (0 : Fin 2) * 4000 + 1 * p.val = win0_5.index t (0 : Fin 2) * 4000 + 1 * p.val; omega
    | ⟨1, _⟩ => show win0_1.index t (1 : Fin 2) * 128 + 1 * k.val = k.val; omega
  · intro k
    show V c main_arg2 (((cfg0.win 2).blk t).view.emb (ix2 k q)) = V c main_arg2 _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · intro k
    show V c main_arg4 (((cfg0.win 3).blk t).view.emb (ix2 k q)) = V c main_arg4 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * q.val = win0_5.index t (1 : Fin 2) * 128 + 1 * q.val; omega
  · show V c main_v39 (((cfg0.win 4).blk t).view.emb (ix2 (0 : Fin 1) q)) = V c main_v39 _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_5.index t (1 : Fin 2) * 128 + 1 * q.val; omega

/-- An index of the output array is in step t's block iff each coordinate is in the block's range on its axis. -/
theorem mem_block1 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v40).slice (win0_5.rect t)).set ↔ _
  rw [View.set_slice_whole, Rect.mem_set_unit]
  exact Iff.rfl

/-- Row r is in the block of step r / 4000. -/
theorem cover1 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  let t : Fin cfg0.N := ⟨(i 0).val / 4000, by rw [hN]; omega⟩
  have ht : t.val = (i 0).val / 4000 := rfl
  obtain ⟨e00, e01, e10, e11, e20, e21, e30, e31, e40, e41, e50, e51⟩ := blocks1 t
  refine ⟨t, flush0_5 t, ?_⟩
  rw [mem_block1]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- The first layer's output array after its grid. -/
theorem final1 (c : Dev nD) : (dat0 V c).arrAt 5 cfg0.N = layer1 V c :=
  (dat0 V c).arrAt_eq_of_cover 5 (layer1 V c) (fun t _ => flushed1 V c t) cover1

/-! ## The second layer's grid -/

/-- The second layer's whole output: at (r, q) the affine map of the aggregate, the hidden array, the two weight
    matrices and the bias row as the grid finds them. -/
def layer2 (c : Dev nD) : S100000x16.Idx → Ideal .f32 := fun i =>
  lin (N := 100000) (K := 128) (D := 16) (V c main_v57) (V c main_v40) (V c main_arg5) (V c main_arg7) (V c main_v58)
    (⟨(i 0).val, (i 0).isLt⟩ : Fin 100000) (⟨(i 1).val, (i 1).isLt⟩ : Fin 16)

/-- Where each window's block sits at step t of the second grid. -/
theorem blocks2 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What step t writes back is block t of the layer's whole output. -/
theorem flushed2 (c : Dev nD) (t : Fin cfg1.N) :
    (dat1 V c).flushed 5 t = ((cfg1.win 5).blk t).view.read (Elt Ideal) (layer2 V c) := by
  show (cfg1.win 5).cut (grid1.coords t) ((dat1 V c).after 5 t) = _
  rw [after1_5]
  unfold out1_5
  rw [View.canon_unit_zero origin2]
  simp only [View.ld_unit_zero (S := S4000x128) origin2, View.ld_unit_zero (S := S128x16) origin2, View.ld_unit_zero (S := S1x16) origin2]
  obtain ⟨e00, e01, e10, e11, e20, e21, e30, e31, e40, e41, e50, e51⟩ := blocks2 t
  funext j
  obtain ⟨p, q, rfl⟩ : ∃ (p : Fin 4000) (q : Fin 16), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = layer2 V c (((cfg1.win 5).blk t).view.emb (ix2 p q))
  refine (pay_layer2_at (iblk1 V c 0 t) (iblk1 V c 1 t) (iblk1 V c 2 t) (iblk1 V c 3 t) (iblk1 V c 4 t) p q).trans ?_
  unfold layer2
  refine lin_congr (N := 4000) (N' := 100000) (K := 128) (D := 16) (D' := 16) _ _ _ _ _ _ _ _ _ _ p _ q _ ?_ ?_ ?_ ?_ ?_
  · intro k
    show V c main_v57 (((cfg1.win 0).blk t).view.emb (ix2 p k)) = V c main_v57 _
    refine congrArg _ (funext fun a => Fin.ext ?_)
    match a with
    | ⟨0, _⟩ => show win1_0.index t (0 : Fin 2) * 4000 + 1 * p.val = win1_5.index t (0 : Fin 2) * 4000 + 1 * p.val; omega
    | ⟨1, _⟩ => show win1_0.index t (1 : Fin 2) * 128 + 1 * k.val = k.val; omega
  · intro k
    show V c main_v40 (((cfg1.win 1).blk t).view.emb (ix2 p k)) = V c main_v40 _
    refine congrArg _ (funext fun a => Fin.ext ?_)
    match a with
    | ⟨0, _⟩ => show win1_1.index t (0 : Fin 2) * 4000 + 1 * p.val = win1_5.index t (0 : Fin 2) * 4000 + 1 * p.val; omega
    | ⟨1, _⟩ => show win1_1.index t (1 : Fin 2) * 128 + 1 * k.val = k.val; omega
  · intro k
    show V c main_arg5 (((cfg1.win 2).blk t).view.emb (ix2 k q)) = V c main_arg5 _
    refine congrArg _ (funext fun a => Fin.ext ?_)
    match a with
    | ⟨0, _⟩ => show win1_2.index t (0 : Fin 2) * 128 + 1 * k.val = k.val; omega
    | ⟨1, _⟩ => show win1_2.index t (1 : Fin 2) * 16 + 1 * q.val = win1_5.index t (1 : Fin 2) * 16 + 1 * q.val; omega
  · intro k
    show V c main_arg7 (((cfg1.win 3).blk t).view.emb (ix2 k q)) = V c main_arg7 _
    refine congrArg _ (funext fun a => Fin.ext ?_)
    match a with
    | ⟨0, _⟩ => show win1_3.index t (0 : Fin 2) * 128 + 1 * k.val = k.val; omega
    | ⟨1, _⟩ => show win1_3.index t (1 : Fin 2) * 16 + 1 * q.val = win1_5.index t (1 : Fin 2) * 16 + 1 * q.val; omega
  · show V c main_v58 (((cfg1.win 4).blk t).view.emb (ix2 (0 : Fin 1) q)) = V c main_v58 _
    refine congrArg _ (funext fun a => Fin.ext ?_)
    match a with
    | ⟨0, _⟩ => show win1_4.index t (0 : Fin 2) * 1 + 1 * 0 = 0; omega
    | ⟨1, _⟩ => show win1_4.index t (1 : Fin 2) * 16 + 1 * q.val = win1_5.index t (1 : Fin 2) * 16 + 1 * q.val; omega

/-- An index of the output array is in step t's block iff each coordinate is in the block's range on its axis. -/
theorem mem_block2 (t : Fin cfg1.N) (i : S100000x16.Idx) :
    i ∈ ((cfg1.win 5).blk t).view.set ↔ ∀ a : Fin 2, win1_5.index t a * S4000x16.size a ≤ (i a).val ∧ (i a).val < win1_5.index t a * S4000x16.size a + S4000x16.size a := by
  show i ∈ ((View.whole main_v59).slice (win1_5.rect t)).set ↔ _
  rw [View.set_slice_whole, Rect.mem_set_unit]
  exact Iff.rfl

/-- Row r is in the block of step r / 4000. -/
theorem cover2 (i : S100000x16.Idx) : ∃ t : Fin cfg1.N, (cfg1.win 5).flush t = true ∧ i ∈ ((cfg1.win 5).blk t).view.set := by
  have hi0 : (i 0).val < 100000 := (i 0).isLt
  have hi1 : (i 1).val < 16 := (i 1).isLt
  have hN : cfg1.N = 25 := N_1
  let t : Fin cfg1.N := ⟨(i 0).val / 4000, by rw [hN]; omega⟩
  have ht : t.val = (i 0).val / 4000 := rfl
  obtain ⟨e00, e01, e10, e11, e20, e21, e30, e31, e40, e41, e50, e51⟩ := blocks2 t
  refine ⟨t, flush1_5 t, ?_⟩
  rw [mem_block2]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 16 ≤ (i 1).val ∧ (i 1).val < win1_5.index t (1 : Fin 2) * 16 + 16; omega

/-- The second layer's output array after its grid. -/
theorem final2 (c : Dev nD) : (dat1 V c).arrAt 5 cfg1.N = layer2 V c :=
  (dat1 V c).arrAt_eq_of_cover 5 (layer2 V c) (fun t _ => flushed2 V c t) cover2

end Cert.KernelIdeal.Arrays

end
-- ==== Proof.KernelLaunch.lean ====
/-
  The idealized kernel's run, with its result array named.

  @main is six segments: three stretches of host operations, the first layer's grid of 25 steps, one more stretch
  of host operations, the second layer's grid of 25 steps. Every weakly fair execution runs them in order and ends;
  the final memory holds, at every buffer no grid step's scratch owns, what the last boundary's contents say. Read at
  the second layer's output array that is the array its 25 write-backs leave; read at an argument it is the launch
  contents.
-/
import proofs.«113458_j4801773437672_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends, nothing faulting, with the result array at the last boundary's
    contents and every argument array as launched. -/
theorem run_result : θ_run defs (onTc (τ := τ) (main (F := F))) ⟨m, fun _ => 0, ρ⟩ (fun r => ∀ c : Dev nD,
      r.2.mem ((c.tc : Thread nD τ).loc main_v59) = W6 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v59 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Run

end
-- ==== Proof.KernelValue.lean ====
/-
  The idealized kernel's result array as one function of the argument arrays.

  Chaining the host stretches and the two grids from the launch memory: the first grid finds the aggregate of the
  features along the edges, the features, the first layer's weights and its bias as a row, and leaves the hidden
  array (the rectified first layer); the stretch between the grids aggregates the hidden array along the same
  edges; the second grid finds that aggregate, the hidden array, the second layer's weights and bias row, and
  leaves the result. Index by index this is the reference's result: each layer is the same affine map (the
  reference adds the bias before the second product, which changes nothing), and the aggregation is the same
  function of (features, edges) both times on both sides.
-/
import proofs.«113458_j4801773437672_1_alg».proof.Proof.KernelHost
import proofs.«113458_j4801773437672_1_alg».proof.Proof.KernelArrays
import proofs.«113458_j4801773437672_1_alg».proof.Proof.KernelLaunch

set_option maxRecDepth 16384

noncomputable section

namespace Cert.KernelIdeal.Whole

open Idealize.ShloMosaic Idealize.ShloMosaic.TcCoe Idealize.ShloMosaic.ValueIdx Idealize.SL.Sem Idealize.ShloMosaic.StableHlo
open Cert.KernelIdeal Cert.KernelIdeal.Gen Cert.KernelIdeal.Host Cert.KernelIdeal.Arrays
open Cert.ReferenceIdeal.Read
open Cert.ReferenceIdeal.Layers (agg hidden hidden_at result_at)

variable (m : (ℓ : Loc nD τ sig) → Buf (Elt Ideal) ℓ) (ρ : Dev nD → PrngReg)

/-! ## After the first stretch -/

theorem w1_src (c : Dev nD) : W1 m ρ c (Proc.devRef .tc main_v1) = val_main_v1 (F := Ideal) (m ((c : Thread nD τ).loc main_arg1)) := (stretch_edges (W0 m ρ c)).1
theorem w1_tgt (c : Dev nD) : W1 m ρ c (Proc.devRef .tc main_v3) = val_main_v3 (F := Ideal) (m ((c : Thread nD τ).loc main_arg1)) := (stretch_edges (W0 m ρ c)).2.1
theorem w1_mask (c : Dev nD) : W1 m ρ c (Proc.devRef .tc main_v5) = val_main_v5 (F := Ideal) (m ((c : Thread nD τ).loc main_arg1)) := (stretch_edges (W0 m ρ c)).2.2.1
theorem w1_deg (c : Dev nD) : W1 m ρ c (Proc.devRef .tc main_v10) = val_main_v10 (F := Ideal) (m ((c : Thread nD τ).loc main_arg1)) := (stretch_edges (W0 m ρ c)).2.2.2.1
theorem w1_one (c : Dev nD) : W1 m ρ c (Proc.devRef .tc main_cst_1) = val_main_cst_1 (F := Ideal) := (stretch_edges (W0 m ρ c)).2.2.2.2
theorem w1_arg0 (c : Dev nD) : W1 m ρ c (Proc.devRef .tc main_arg0) = (m ((c : Thread nD τ).loc main_arg0)) := edges_keep_arg0 (W0 m ρ c)
theorem w1_arg2 (c : Dev nD) : W1 m ρ c (Proc.devRef .tc main_arg2) = (m ((c : Thread nD τ).loc main_arg2)) := edges_keep_arg2 (W0 m ρ c)
theorem w1_arg3 (c : Dev nD) : W1 m ρ c (Proc.devRef .tc main_arg3) = (m ((c : Thread nD τ).loc main_arg3)) := edges_keep_arg3 (W0 m ρ c)
theorem w1_arg4 (c : Dev nD) : W1 m ρ c (Proc.devRef .tc main_arg4) = (m ((c : Thread nD τ).loc main_arg4)) := edges_keep_arg4 (W0 m ρ c)
theorem w1_arg5 (c : Dev nD) : W1 m ρ c (Proc.devRef .tc main_arg5) = (m ((c : Thread nD τ).loc main_arg5)) := edges_keep_arg5 (W0 m ρ c)
theorem w1_arg6 (c : Dev nD) : W1 m ρ c (Proc.devRef .tc main_arg6) = (m ((c : Thread nD τ).loc main_arg6)) := edges_keep_arg6 (W0 m ρ c)
theorem w1_arg7 (c : Dev nD) : W1 m ρ c (Proc.devRef .tc main_arg7) = (m ((c : Thread nD τ).loc main_arg7)) := edges_keep_arg7 (W0 m ρ c)

/-! ## After the clip -/

theorem w2_clip (c : Dev nD) : W2 m ρ c (Proc.devRef .tc main_v11) = val_main_v11 (F := Ideal) (m ((c : Thread nD τ).loc main_arg1)) :=
  stretch_clip (W1 m ρ c) _ (w1_deg m ρ c) (w1_one m ρ c)
theorem w2_src (c : Dev nD) : W2 m ρ c (Proc.devRef .tc main_v1) = val_main_v1 (F := Ideal) (m ((c : Thread nD τ).loc main_arg1)) := (clip_keep_v1 (W1 m ρ c)).trans (w1_src m ρ c)
theorem w2_tgt (c : Dev nD) : W2 m ρ c (Proc.devRef .tc main_v3) = val_main_v3 (F := Ideal) (m ((c : Thread nD τ).loc main_arg1)) := (clip_keep_v3 (W1 m ρ c)).trans (w1_tgt m ρ c)
theorem w2_mask (c : Dev nD) : W2 m ρ c (Proc.devRef .tc main_v5) = val_main_v5 (F := Ideal) (m ((c : Thread nD τ).loc main_arg1)) := (clip_keep_v5 (W1 m ρ c)).trans (w1_mask m ρ c)
theorem w2_arg0 (c : Dev nD) : W2 m ρ c (Proc.devRef .tc main_arg0) = (m ((c : Thread nD τ).loc main_arg0)) := (clip_keep_arg0 (W1 m ρ c)).trans (w1_arg0 m ρ c)
theorem w2_arg2 (c : Dev nD) : W2 m ρ c (Proc.devRef .tc main_arg2) = (m ((c : Thread nD τ).loc main_arg2)) := (clip_keep_arg2 (W1 m ρ c)).trans (w1_arg2 m ρ c)
theorem w2_arg3 (c : Dev nD) : W2 m ρ c (Proc.devRef .tc main_arg3) = (m ((c : Thread nD τ).loc main_arg3)) := (clip_keep_arg3 (W1 m ρ c)).trans (w1_arg3 m ρ c)
theorem w2_arg4 (c : Dev nD) : W2 m ρ c (Proc.devRef .tc main_arg4) = (m ((c : Thread nD τ).loc main_arg4)) := (clip_keep_arg4 (W1 m ρ c)).trans (w1_arg4 m ρ c)
theorem w2_arg5 (c : Dev nD) : W2 m ρ c (Proc.devRef .tc main_arg5) = (m ((c : Thread nD τ).loc main_arg5)) := (clip_keep_arg5 (W1 m ρ c)).trans (w1_arg5 m ρ c)
theorem w2_arg6 (c : Dev nD) : W2 m ρ c (Proc.devRef .tc main_arg6) = (m ((c : Thread nD τ).loc main_arg6)) := (clip_keep_arg6 (W1 m ρ c)).trans (w1_arg6 m ρ c)
theorem w2_arg7 (c : Dev nD) : W2 m ρ c (Proc.devRef .tc main_arg7) = (m ((c : Thread nD τ).loc main_arg7)) := (clip_keep_arg7 (W1 m ρ c)).trans (w1_arg7 m ρ c)

/-! ## At the first grid's entry -/

theorem w3_all (c : Dev nD) :
    W3 m ρ c (Proc.devRef .tc main_v13) = val_main_v13 (F := Ideal) (m ((c : Thread nD τ).loc main_arg1))
    ∧ W3 m ρ c (Proc.devRef .tc main_v21) = val_main_v21 (F := Ideal) (m ((c : Thread nD τ).loc main_arg1))
    ∧ W3 m ρ c (Proc.devRef .tc main_v38) = agg (W2 m ρ c (Proc.devRef .tc main_arg0)) (m ((c : Thread nD τ).loc main_arg1))
    ∧ W3 m ρ c (Proc.devRef .tc main_v39) = shapeCast S1x128 (W2 m ρ c (Proc.devRef .tc main_arg3)) shapeCasts_S128_S1x128 :=
  stretch_agg1 (W2 m ρ c) _ (w2_src m ρ c) (w2_tgt m ρ c) (w2_mask m ρ c) (w2_clip m ρ c)
theorem w3_src (c : Dev nD) : W3 m ρ c (Proc.devRef .tc main_v1) = val_main_v1 (F := Ideal) (m ((c : Thread nD τ).loc main_arg1)) := (agg1_keep_v1 (W2 m ρ c)).trans (w2_src m ρ c)
theorem w3_tgt (c : Dev nD) : W3 m ρ c (Proc.devRef .tc main_v3) = val_main_v3 (F := Ideal) (m ((c : Thread nD τ).loc main_arg1)) := (agg1_keep_v3 (W2 m ρ c)).trans (w2_tgt m ρ c)
theorem w3_arg0 (c : Dev nD) : W3 m ρ c (Proc.devRef .tc main_arg0) = (m ((c : Thread nD τ).loc main_arg0)) := (agg1_keep_arg0 (W2 m ρ c)).trans (w2_arg0 m ρ c)
theorem w3_arg2 (c : Dev nD) : W3 m ρ c (Proc.devRef .tc main_arg2) = (m ((c : Thread nD τ).loc main_arg2)) := (agg1_keep_arg2 (W2 m ρ c)).trans (w2_arg2 m ρ c)
theorem w3_arg4 (c : Dev nD) : W3 m ρ c (Proc.devRef .tc main_arg4) = (m ((c : Thread nD τ).loc main_arg4)) := (agg1_keep_arg4 (W2 m ρ c)).trans (w2_arg4 m ρ c)
theorem w3_arg5 (c : Dev nD) : W3 m ρ c (Proc.devRef .tc main_arg5) = (m ((c : Thread nD τ).loc main_arg5)) := (agg1_keep_arg5 (W2 m ρ c)).trans (w2_arg5 m ρ c)
theorem w3_arg6 (c : Dev nD) : W3 m ρ c (Proc.devRef .tc main_arg6) = (m ((c : Thread nD τ).loc main_arg6)) := (agg1_keep_arg6 (W2 m ρ c)).trans (w2_arg6 m ρ c)
theorem w3_arg7 (c : Dev nD) : W3 m ρ c (Proc.devRef .tc main_arg7) = (m ((c : Thread nD τ).loc main_arg7)) := (agg1_keep_arg7 (W2 m ρ c)).trans (w2_arg7 m ρ c)

/-- The first grid's whole output is the reference's hidden array. -/
theorem layer1_entry (c : Dev nD) :
    layer1 (V3 m ρ) c = hidden (m ((c : Thread nD τ).loc main_arg0)) (m ((c : Thread nD τ).loc main_arg1)) (m ((c : Thread nD τ).loc main_arg2)) (m ((c : Thread nD τ).loc main_arg3)) (m ((c : Thread nD τ).loc main_arg4)) := by
  funext i
  obtain ⟨r, q, rfl⟩ : ∃ (r : Fin 100000) (q : Fin 128), i = ix2 r q := ⟨i 0, i 1, eq_ix2 i⟩
  refine Eq.trans ?_ (hidden_at _ _ _ _ _ r q).symm
  unfold layer1
  show max (Cert.Gcn.lin (N := 100000) (K := 128) (D := 128) (W3 m ρ c (Proc.devRef .tc main_v38)) (W3 m ρ c (Proc.devRef .tc main_arg0)) (W3 m ρ c (Proc.devRef .tc main_arg2))
      (W3 m ρ c (Proc.devRef .tc main_arg4)) (W3 m ρ c (Proc.devRef .tc main_v39)) r q) _ = _
  rw [(w3_all m ρ c).2.2.1, (w3_all m ρ c).2.2.2, w2_arg0, w2_arg3, w3_arg0, w3_arg2, w3_arg4] <;> rfl

/-! ## Between the grids -/

theorem w4_hidden (c : Dev nD) :
    W4 m ρ c (Proc.devRef .tc main_v40) = hidden (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 5).trans ((final1 (V3 m ρ) c).trans (layer1_entry m ρ c))
theorem w4_src (c : Dev nD) : W4 m ρ c (Proc.devRef .tc main_v1) = val_main_v1 (F := Ideal) (m ((c : Thread nD τ).loc main_arg1)) := (W4_of_ne m ρ c main_v1 (by decide)).trans (w3_src m ρ c)
theorem w4_tgt (c : Dev nD) : W4 m ρ c (Proc.devRef .tc main_v3) = val_main_v3 (F := Ideal) (m ((c : Thread nD τ).loc main_arg1)) := (W4_of_ne m ρ c main_v3 (by decide)).trans (w3_tgt m ρ c)
theorem w4_dinv (c : Dev nD) : W4 m ρ c (Proc.devRef .tc main_v13) = val_main_v13 (F := Ideal) (m ((c : Thread nD τ).loc main_arg1)) := (W4_of_ne m ρ c main_v13 (by decide)).trans (w3_all m ρ c).1
theorem w4_wgt (c : Dev nD) : W4 m ρ c (Proc.devRef .tc main_v21) = val_main_v21 (F := Ideal) (m ((c : Thread nD τ).loc main_arg1)) := (W4_of_ne m ρ c main_v21 (by decide)).trans (w3_all m ρ c).2.1
theorem w4_arg5 (c : Dev nD) : W4 m ρ c (Proc.devRef .tc main_arg5) = (m ((c : Thread nD τ).loc main_arg5)) := (W4_of_ne m ρ c main_arg5 (by decide)).trans (w3_arg5 m ρ c)
theorem w4_arg6 (c : Dev nD) : W4 m ρ c (Proc.devRef .tc main_arg6) = (m ((c : Thread nD τ).loc main_arg6)) := (W4_of_ne m ρ c main_arg6 (by decide)).trans (w3_arg6 m ρ c)
theorem w4_arg7 (c : Dev nD) : W4 m ρ c (Proc.devRef .tc main_arg7) = (m ((c : Thread nD τ).loc main_arg7)) := (W4_of_ne m ρ c main_arg7 (by decide)).trans (w3_arg7 m ρ c)

/-! ## At the second grid's entry -/

theorem w5_all (c : Dev nD) :
    W5 m ρ c (Proc.devRef .tc main_v57) = agg (W4 m ρ c (Proc.devRef .tc main_v40)) (m ((c : Thread nD τ).loc main_arg1))
    ∧ W5 m ρ c (Proc.devRef .tc main_v58) = shapeCast S1x16 (W4 m ρ c (Proc.devRef .tc main_arg6)) shapeCasts_S16_S1x16 :=
  stretch_agg2 (W4 m ρ c) _ (w4_src m ρ c) (w4_tgt m ρ c) (w4_dinv m ρ c) (w4_wgt m ρ c)
theorem w5_hidden (c : Dev nD) :
    W5 m ρ c (Proc.devRef .tc main_v40) = hidden (m ((c : Thread nD τ).loc main_arg0)) (m ((c : Thread nD τ).loc main_arg1)) (m ((c : Thread nD τ).loc main_arg2)) (m ((c : Thread nD τ).loc main_arg3)) (m ((c : Thread nD τ).loc main_arg4)) :=
  (agg2_keep_v40 (W4 m ρ c)).trans (w4_hidden m ρ c)
theorem w5_arg5 (c : Dev nD) : W5 m ρ c (Proc.devRef .tc main_arg5) = (m ((c : Thread nD τ).loc main_arg5)) := (agg2_keep_arg5 (W4 m ρ c)).trans (w4_arg5 m ρ c)
theorem w5_arg7 (c : Dev nD) : W5 m ρ c (Proc.devRef .tc main_arg7) = (m ((c : Thread nD τ).loc main_arg7)) := (agg2_keep_arg7 (W4 m ρ c)).trans (w4_arg7 m ρ c)

/-- The second grid's whole output is the reference's result. -/
theorem layer2_entry (c : Dev nD) :
    layer2 (V5 m ρ) c = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  funext i
  obtain ⟨r, q, rfl⟩ : ∃ (r : Fin 100000) (q : Fin 16), i = ix2 r q := ⟨i 0, i 1, eq_ix2 i⟩
  refine Eq.trans ?_ (result_at _ _ _ _ _ _ _ _ r q).symm
  unfold layer2
  show Cert.Gcn.lin (N := 100000) (K := 128) (D := 16) (W5 m ρ c (Proc.devRef .tc main_v57)) (W5 m ρ c (Proc.devRef .tc main_v40)) (W5 m ρ c (Proc.devRef .tc main_arg5))
      (W5 m ρ c (Proc.devRef .tc main_arg7)) (W5 m ρ c (Proc.devRef .tc main_v58)) r q = _
  rw [(w5_all m ρ c).1, (w5_all m ρ c).2, w4_hidden, w4_arg6, w5_hidden, w5_arg5, w5_arg7] <;> rfl

/-! ## The result -/

/-- The result array after the run is the reference's result stage of the argument arrays. -/
theorem result_eq (c : Dev nD) :
    W6 m ρ c (Proc.devRef .tc main_v59) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) :=
  (W6_arr m ρ c 5).trans ((final2 (V5 m ρ) c).trans (layer2_entry m ρ c))

/-- Every weakly fair execution of the idealized kernel ends with its result array at the reference's result stage
    of the launch contents of the arguments, and the arguments unchanged. -/
theorem run : θ_run defs (onTc (τ := τ) (main (F := Ideal))) ⟨m, fun _ => 0, ρ⟩ (fun r => ∀ c : Dev nD,
      r.2.mem ((c.tc : Thread nD τ).loc main_v59) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.Run.run_result m ρ)

end Cert.KernelIdeal.Whole

end
-- ==== Proof.lean ====
/-
  A two-layer graph convolution over 100000 nodes and 640000 edges: each layer aggregates its input rows along the
  edges (messages gathered from the source rows, weighted by the inverse in-degree with self loops removed,
  scatter-added at the target rows, plus the node's own row over its degree) and then applies a dense affine map
      out = agg · W_out + x · W_root + b
  (rectified after the first layer). The kernel leaves the aggregation to the host and runs the dense map as a grid
  of 25 tiles of 4000 rows, the operands narrowed to bf16, the two products accumulated from zero; the reference
  computes agg · W_out + b + x · W_root with whole-array products.

  On the extended reals the two programs are the same function of the arguments. A change of float format is the
  identity; a tile's product into zero and the host's product are the same sum over the contracted coordinate; row r
  of the dense map reads only row r of its two tall operands, so the 25 tiles are the blocks of one whole-array
  function; the two orders of adding the bias agree because addition is commutative and associative (no law that
  fails at an infinity is used, so the precondition is never opened); and the aggregation is, operation for
  operation, the same host computation on both sides — the reference merely recomputes the degree weights, from
  the edges alone, for its second layer. The ideal pass rewrote nothing, so the idealized kernel is the kernel's
  own text read at the exact values.
-/
import proofs.«113458_j4801773437672_1_alg».proof.Defs
import proofs.«113458_j4801773437672_1_alg».proof.Proof.Gen.Kernel
import proofs.«113458_j4801773437672_1_alg».proof.Proof.Gen.Kernel.Skeleton
import proofs.«113458_j4801773437672_1_alg».proof.Proof.Gen.Kernel.Launch
import proofs.«113458_j4801773437672_1_alg».proof.Proof.Gen.Kernel.Points
import proofs.«113458_j4801773437672_1_alg».proof.Proof.Gen.Kernel.Frame
import proofs.«113458_j4801773437672_1_alg».proof.Proof.Gen.KernelIdeal
import proofs.«113458_j4801773437672_1_alg».proof.Proof.Gen.KernelIdeal.Skeleton
import proofs.«113458_j4801773437672_1_alg».proof.Proof.Gen.KernelIdeal.Launch
import proofs.«113458_j4801773437672_1_alg».proof.Proof.Gen.KernelIdeal.Points
import proofs.«113458_j4801773437672_1_alg».proof.Proof.Gen.KernelIdeal.Frame
import proofs.«113458_j4801773437672_1_alg».proof.Proof.Gen.ReferenceIdeal
import proofs.«113458_j4801773437672_1_alg».proof.Proof.Gen.ReferenceIdeal.Run
import proofs.«113458_j4801773437672_1_alg».proof.Proof.Gen.ReferenceIdeal.Read
import proofs.«113458_j4801773437672_1_alg».proof.Proof.Gen.Pre_finite_inputs
import proofs.«113458_j4801773437672_1_alg».proof.Proof.KernelValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the same result array: the reference's result
    stage of the arguments. -/
theorem algebraic : Cert.algebraic_KernelIdeal_ReferenceIdeal := by
  intro m ρ m' ρ' _ hagree
  refine ⟨fun c => Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v84_eq, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
